-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x256 : Shape := ⟨2, ![16384, 256]⟩
abbrev S128x256 : Shape := ⟨2, ![128, 256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S16384x16384 .f32) (main_arg1 : FVec F S16384x256 .f32) (main_arg2 : FVec F S128x256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S16384x16384 : Shape := ⟨2, ![16384, 16384]⟩
abbrev S16384x256 : Shape := ⟨2, ![16384, 256]⟩
abbrev S128x256 : Shape := ⟨2, ![128, 256]⟩
abbrev S_ : Shape := ⟨0, ![]⟩
abbrev S16384x128 : Shape := ⟨2, ![16384, 128]⟩
abbrev S16384x384 : Shape := ⟨2, ![16384, 384]⟩
abbrev S256x128 : Shape := ⟨2, ![256, 128]⟩
abbrev S2048x1024 : Shape := ⟨2, ![2048, 1024]⟩
abbrev S2048x128 : Shape := ⟨2, ![2048, 128]⟩
abbrev S2048x384 : Shape := ⟨2, ![2048, 384]⟩
abbrev S1024x384 : Shape := ⟨2, ![1024, 384]⟩
abbrev S2048x256 : Shape := ⟨2, ![2048, 256]⟩
abbrev S2048x1 : Shape := ⟨2, ![2048, 1]⟩

abbrev nBuf : Space → Nat
  | .hbm => 9
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S128x256, .f32⟩
  | .hbm, ⟨3, _⟩ => ⟨S16384x256, .bf16⟩
  | .hbm, ⟨4, _⟩ => ⟨S_, .bf16⟩
  | .hbm, ⟨5, _⟩ => ⟨S16384x128, .bf16⟩
  | .hbm, ⟨6, _⟩ => ⟨S16384x384, .bf16⟩
  | .hbm, ⟨7, _⟩ => ⟨S256x128, .f32⟩
  | .hbm, ⟨8, _⟩ => ⟨S16384x128, .f32⟩
  | .local _ .vmem, ⟨0, _⟩ => ⟨S2048x1024, .f32⟩
  | .local _ .vmem, ⟨1, _⟩ => ⟨S2048x1024, .f32⟩
  | .local _ .vmem, ⟨2, _⟩ => ⟨S16384x384, .bf16⟩
  | .local _ .vmem, ⟨3, _⟩ => ⟨S256x128, .f32⟩
  | .local _ .vmem, ⟨4, _⟩ => ⟨S2048x128, .f32⟩
  | .local _ .vmem, ⟨5, _⟩ => ⟨S2048x128, .f32⟩
  | .local _ .vmem, ⟨6, _⟩ => ⟨S2048x384, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_2 : Index := 0#32
  ![v11.toNat, 0]
def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  bcast_S_S16384x128 : S_.BroadcastsInDim S16384x128 (![] : Fin 0 → Fin S16384x128.rank)
  concatenates_S16384x256_S16384x128_S16384x384_d1 : Shape.Concatenates [S16384x256, S16384x128] S16384x384 1
  transposes_S128x256_S256x128_1_0 : S128x256.Transposes [1, 0] S256x128
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S2048x1024_S2048x1024_0_0 : ∀ a, (![0, 0] : Fin 2 → Nat) a + S2048x1024.size a ≤ S2048x1024.size a
  h_S2048x1024 : 0 < S2048x1024.numel
  natLt_1_32 : 1 < 32
  h_S1024x384 : 0 < S1024x384.numel
  shapeCasts_S1024x384_S1024x384 : S1024x384.ShapeCasts S1024x384
  inb_S2048x384_S2048x256_0_0 : ∀ a, (![0, 0] : Fin 2 → Nat) a + S2048x256.size a ≤ S2048x384.size a
  h_S2048x256 : 0 < S2048x256.numel
  inb_S2048x384_S2048x1_0_256 : ∀ a, (![0, 256] : Fin 2 → Nat) a + S2048x1.size a ≤ S2048x384.size a
  h_S2048x1 : 0 < S2048x1.numel
  broadcasts_S2048x1_S2048x256 : S2048x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  dot_S2048x1024_S1024x384_S2048x384_1_0_0_1_n_n_wf : DotDims.WF S2048x1024 S1024x384 S2048x384 [1] [0] [0] [1] [] []
  dot_S2048x256_S256x128_S2048x128_1_0_0_1_n_n_wf : DotDims.WF S2048x256 S256x128 S2048x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x384.size a ≤ S16384x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x384.size a ≤ S16384x384.size a
  hwx0_1 : ∀ i : grid0.Coords, EltTy.bits .bf16 = 32 ∨ (Rect.block (s := S16384x384) S16384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x256 : Shape := ⟨2, ![16384, 256]⟩
abbrev S128x256 : Shape := ⟨2, ![128, 256]⟩
abbrev S_ : Shape := ⟨0, ![]⟩
abbrev S16384 : Shape := ⟨1, ![16384]⟩
abbrev S16384x1 : Shape := ⟨2, ![16384, 1]⟩
abbrev S256x128 : Shape := ⟨2, ![256, 128]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x256, .f32⟩
  | .hbm, ⟨2, _⟩ => ⟨S128x256, .f32⟩
  | .hbm, ⟨3, _⟩ => ⟨S_, .f32⟩
  | .hbm, ⟨4, _⟩ => ⟨S16384x16384, .f32⟩
  | .hbm, ⟨5, _⟩ => ⟨S16384x16384, .i1⟩
  | .hbm, ⟨6, _⟩ => ⟨S16384x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x256, .f32⟩
  | .hbm, ⟨13, _⟩ => ⟨S16384x1, .f32⟩
  | .hbm, ⟨14, _⟩ => ⟨S16384x256, .f32⟩
  | .hbm, ⟨15, _⟩ => ⟨S16384x256, .f32⟩
  | .hbm, ⟨16, _⟩ => ⟨S256x128, .f32⟩
  | .hbm, ⟨17, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  transposes_S128x256_S256x128_1_0 : S128x256.Transposes [1, 0] S256x128
  dot_S16384x16384_S16384x256_S16384x256_1_0_0_1_n_n_wf : DotDims.WF S16384x16384 S16384x256 S16384x256 [1] [0] [0] [1] [] []
  dot_S16384x256_S256x128_S16384x128_1_0_0_1_n_n_wf : DotDims.WF S16384x256 S256x128 S16384x128 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Spec.lean ====
/-
  The specification of the graph layer, as one function of the three argument arrays, over the extended reals.

  For a node `r` let `ind (A r j)` be 1 when `A r j ≠ 0` and 0 otherwise.  The layer computes, for node `r` and output
  feature `o`,
      Σ_f ( (Σ_j ind (A r j) · H j f) / ((Σ_j ind (A r j)) + 1) ) · W o f :
  the sum of the neighbours' feature rows, divided by the neighbour count plus one, then projected by the weight matrix.

  Also here: arrays read at natural-number coordinates (zero outside their extent), in which a sum taken in 16 consecutive
  runs of 1024 columns is restated as one sum over all 16384 columns — addition of extended reals is commutative and
  associative, so no finiteness is needed.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- The indicator of a nonzero entry, as an extended real: the comparison's bit read as a natural number. -/
def ind (x : EReal) : EReal := (((Ideal.cmp .une x (Ideal.ofBits .f32 0x00000000#32)).toNat : ℝ) : EReal)

/-- The literal the neighbour count is increased by (the float word of 1.0, kept as a word: both programs use it). -/
def oneLit : EReal := Ideal.ofBits .f32 0x3F800000#32

/-- The neighbour-feature sum of node `r` at feature `f`. -/
def nbrSum (A : (⟨2, ![16384, 16384]⟩ : Shape).Idx → EReal) (H : (⟨2, ![16384, 256]⟩ : Shape).Idx → EReal)
    (r : Fin 16384) (f : Fin 256) : EReal :=
  ∑ j : Fin 16384, ind (A (ix2 r j)) * H (ix2 j f)

/-- The neighbour count of node `r`. -/
def deg (A : (⟨2, ![16384, 16384]⟩ : Shape).Idx → EReal) (r : Fin 16384) : EReal :=
  ∑ j : Fin 16384, ind (A (ix2 r j))

/-- THE LAYER: mean-like aggregation over neighbours, then the linear map. -/
def layer (A : (⟨2, ![16384, 16384]⟩ : Shape).Idx → EReal) (H : (⟨2, ![16384, 256]⟩ : Shape).Idx → EReal)
    (W : (⟨2, ![128, 256]⟩ : Shape).Idx → EReal) : (⟨2, ![16384, 128]⟩ : Shape).Idx → EReal :=
  fun i => ∑ f : Fin 256, Ideal.div (nbrSum A H (i 0) f) (deg A (i 0) + oneLit) * W (ix2 (i 1) f)

/-! ## Arrays at natural-number coordinates -/

/-- A two-axis array read at natural-number coordinates: zero outside its extent. -/
def ext2 {n0 n1 : ℕ} (X : (⟨2, ![n0, n1]⟩ : Shape).Idx → EReal) (i j : ℕ) : EReal :=
  if h : i < n0 ∧ j < n1 then X (ix2 ⟨i, h.1⟩ ⟨j, h.2⟩) else 0

theorem ext2_of_lt {n0 n1 : ℕ} (X : (⟨2, ![n0, n1]⟩ : Shape).Idx → EReal) {i j : ℕ} (hi : i < n0) (hj : j < n1) :
    ext2 X i j = X (ix2 ⟨i, hi⟩ ⟨j, hj⟩) := dif_pos ⟨hi, hj⟩

/-! ## A sum in consecutive runs is the whole sum -/

/-- Summing `m` consecutive runs of `n` terms each is summing all `m · n` terms (in a commutative monoid). -/
theorem sum_runs {M : Type*} [AddCommMonoid M] (m n : ℕ) (a : ℕ → M) :
    ∑ s ∈ Finset.range m, ∑ k : Fin n, a (n * s + k.val) = ∑ j : Fin (m * n), a j.val := by
  rw [Finset.sum_range, ← Fintype.sum_prod_type']
  rw [← Equiv.sum_comp (finProdFinEquiv (m := m) (n := n)) (fun j : Fin (m * n) => a j.val)]
  refine Finset.sum_congr rfl fun x _ => ?_
  congr 1
  simp only [finProdFinEquiv, Equiv.coe_fn_mk]
  omega

/-- The case of the kernel's column blocks: 16 runs of 1024 columns are the 16384 columns. -/
theorem sum_16_runs_1024 {M : Type*} [AddCommMonoid M] (a : ℕ → M) :
    ∑ s ∈ Finset.range 16, ∑ k : Fin 1024, a (1024 * s + k.val) = ∑ j : Fin 16384, a j.val :=
  sum_runs 16 1024 a

/-- The bf16 word of 1.0 denotes 1: the degree column of the augmented feature matrix. -/
theorem ofBits_bf16_one : Ideal.ofBits .bf16 0x3F80#16 = 1 := by
  simp [Ideal.ofBits, Ideal.ieee, -EReal.coe_mul]; norm_num

end Cert.GcnSpec

end
-- ==== Proof.RefValue.lean ====
/-
  The reference computes the layer.  Read one operation at a time at an output index `(r, o)`: the last matrix product sums
  over the features `f`; its left factor is the quotient of the neighbour-feature sum (the first matrix product, whose left
  factor is the indicator of a nonzero adjacency entry) by the neighbour count plus one (the row sum of the same indicator,
  started from the zero word, which denotes 0); its right factor is the transposed weight matrix, read at `(o, f)`.
-/
import proofs.«148739_j35536559407742_2_alg».proof.Proof.Gen.ReferenceIdeal.Read
import proofs.«148739_j35536559407742_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GcnSpec

/-- The converted comparison at an entry is the indicator of that entry. -/
theorem mask_apply (A : (⟨S16384x16384, .f32⟩ : BufTy).Contents (Elt Ideal)) (p : S16384x16384.Idx) :
    val_main_v2 (F := Ideal) A p = ind (A p) := by
  rw [val_main_v2_apply, val_main_v1_apply, val_main_v0_apply, val_main_cst_apply]
  rfl

/-- The neighbour count plus one, at a row. -/
theorem degp_apply (A : (⟨S16384x16384, .f32⟩ : BufTy).Contents (Elt Ideal)) (q : S16384.Idx) :
    val_main_v5 (F := Ideal) A q = deg A (q 0) + oneLit := by
  rw [val_main_v5_apply, val_main_v3_apply, val_main_v4_apply, val_main_cst_1_apply, val_main_cst_0_apply]
  have hs : (∑ k : Fin 16384, val_main_v2 (F := Ideal) A (idx_main_v3 q k)) = ∑ j : Fin 16384, ind (A (ix2 (q 0) j)) :=
    Finset.sum_congr rfl fun k _ => by
      rw [mask_apply]
      exact congrArg (fun p => ind (A p)) (funext fun a => Fin.ext (by match a with | ⟨0, _⟩ => rfl | ⟨1, _⟩ => rfl))
  rw [hs]
  show (Ideal.ofBits .f32 0x00000000#32 + _) + _ = _
  rw [Ideal.ofBits_zero_f32, zero_add]
  rfl

/-- THE REFERENCE IS THE LAYER. -/
theorem ref_eq (A : (⟨S16384x16384, .f32⟩ : BufTy).Contents (Elt Ideal)) (H : (⟨S16384x256, .f32⟩ : BufTy).Contents (Elt Ideal))
    (W : (⟨S128x256, .f32⟩ : BufTy).Contents (Elt Ideal)) :
    val_main_v11 (F := Ideal) A H W = layer A H W := by
  funext i
  rw [val_main_v11_apply]
  show _ = ∑ f : Fin 256, Ideal.div (nbrSum A H (i 0) f) (deg A (i 0) + oneLit) * W (ix2 (i 1) f)
  refine Finset.sum_congr rfl fun f _ => ?_
  rw [val_main_v9_apply, val_main_v10_apply, val_main_v6_apply, val_main_v8_apply, val_main_v7_apply, degp_apply]
  have e10 : idx_main_v10 (ridx_main_v11 i f) = ix2 (i 1) f :=
    funext fun a => Fin.ext (by match a with | ⟨0, _⟩ => rfl | ⟨1, _⟩ => rfl)
  have hs : (∑ k : Fin 16384, val_main_v2 (F := Ideal) A (lidx_main_v6 (lidx_main_v11 i f) k) * H (ridx_main_v6 (lidx_main_v11 i f) k))
      = ∑ j : Fin 16384, ind (A (ix2 (i 0) j)) * H (ix2 j f) :=
    Finset.sum_congr rfl fun k _ => by
      rw [mask_apply]
      have el : lidx_main_v6 (lidx_main_v11 i f) k = ix2 (i 0) k :=
        funext fun a => Fin.ext (by match a with | ⟨0, _⟩ => rfl | ⟨1, _⟩ => rfl)
      have er : ridx_main_v6 (lidx_main_v11 i f) k = ix2 k f :=
        funext fun a => Fin.ext (by match a with | ⟨0, _⟩ => rfl | ⟨1, _⟩ => rfl)
      rw [el, er]
      rfl
  rw [e10, hs]
  rfl

end Cert.ReferenceIdeal.RefValue

end
-- ==== Proof.Pieces.lean ====
/-
  What the kernel body leaves at one grid point, case by case, as terms over its three arithmetic steps:
    * the zero fill of the accumulator,
    * the accumulation step  acc + indicator(A block) · (rows of the augmented feature matrix),
    * the epilogue  (acc[:, :256] / (acc[:, 256:257] + 1)) · Wᵀ.
  At the first column block the accumulator is the zero fill before the step; at the last column block the epilogue reads
  the accumulator the step has just stored: its first 256 columns and its column 256.  The rows of the augmented feature
  matrix the step multiplies by are the 1024 rows starting at 1024 times the column-block coordinate.
-/
import proofs.«148739_j35536559407742_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The rows of the augmented feature matrix the body loads at a grid point: 1024 rows from row 1024 · (column block). -/
abbrev featRows (i : grid0.Coords) (x1 : Vec F S16384x384 .bf16) : Vec F S1024x384 .bf16 :=
  View.ld x1 (Rect.unit (s := S16384x384) (k0_off1 i) S1024x384.size (k0_off1_inb i))

/-- The accumulator's first 256 columns, as the epilogue loads them. -/
abbrev sumCols (P : Vec F S2048x384 .f32) : Vec F S2048x256 .f32 :=
  View.ld P (Rect.unit (s := S2048x384) ![0, 0] S2048x256.size inb_S2048x384_S2048x256_0_0)

/-- The accumulator's column 256, as the epilogue loads it. -/
abbrev degCol (P : Vec F S2048x384 .f32) : Vec F S2048x1 .f32 :=
  View.ld P (Rect.unit (s := S2048x384) ![0, 256] S2048x1.size inb_S2048x384_S2048x1_0_256)

/-- A middle column block: the accumulator becomes the step over what it held. -/
theorem acc_B (c : Dev nD) (i : grid0.Coords) (a2 : Memref sig .tc .vmem S2048x1024 .f32) (h2 : a2.IsWhole)
    (a3 : Memref sig .tc .vmem S16384x384 .bf16) (h3 : a3.IsWhole) (a4 : Memref sig .tc .vmem S256x128 .f32) (h4 : a4.IsWhole)
    (a5 : Memref sig .tc .vmem S2048x128 .f32) (h5 : a5.IsWhole) (a6 : Memref sig .tc .vmem S2048x384 .f32) (h6 : a6.IsWhole)
    (hc0 : ¬cond0_0 i) (hc1 : ¬cond0_1 i)
    (x0 : Vec F S2048x1024 .f32) (x1 : Vec F S16384x384 .bf16) (x2 : Vec F S256x128 .f32) (xs0 : Vec F S2048x384 .f32) :
    sout0_B_0 c i a2 h2 a3 h3 a4 h4 a5 h5 a6 h6 hc0 hc1 x0 x1 x2 xs0 = k0_pay2 x0 (featRows i x1) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h6.read_unread, View.ld_unit_zero (S := S2048x1024) hz,
    View.ld_unit_zero (S := S2048x384) hz]
  rfl

/-- The last column block: the accumulator likewise. -/
theorem acc_C (c : Dev nD) (i : grid0.Coords) (a2 : Memref sig .tc .vmem S2048x1024 .f32) (h2 : a2.IsWhole)
    (a3 : Memref sig .tc .vmem S16384x384 .bf16) (h3 : a3.IsWhole) (a4 : Memref sig .tc .vmem S256x128 .f32) (h4 : a4.IsWhole)
    (a5 : Memref sig .tc .vmem S2048x128 .f32) (h5 : a5.IsWhole) (a6 : Memref sig .tc .vmem S2048x384 .f32) (h6 : a6.IsWhole)
    (hc0 : ¬cond0_0 i) (hc1 : cond0_1 i)
    (x0 : Vec F S2048x1024 .f32) (x1 : Vec F S16384x384 .bf16) (x2 : Vec F S256x128 .f32) (xs0 : Vec F S2048x384 .f32) :
    sout0_C_0 c i a2 h2 a3 h3 a4 h4 a5 h5 a6 h6 hc0 hc1 x0 x1 x2 xs0 = k0_pay2 x0 (featRows i x1) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h6.read_unread, View.ld_unit_zero (S := S2048x1024) hz,
    View.ld_unit_zero (S := S2048x384) hz]
  rfl

/-- The first column block: the step over the zero fill. -/
theorem acc_A (c : Dev nD) (i : grid0.Coords) (a2 : Memref sig .tc .vmem S2048x1024 .f32) (h2 : a2.IsWhole)
    (a3 : Memref sig .tc .vmem S16384x384 .bf16) (h3 : a3.IsWhole) (a4 : Memref sig .tc .vmem S256x128 .f32) (h4 : a4.IsWhole)
    (a5 : Memref sig .tc .vmem S2048x128 .f32) (h5 : a5.IsWhole) (a6 : Memref sig .tc .vmem S2048x384 .f32) (h6 : a6.IsWhole)
    (hc0 : cond0_0 i) (hc1 : ¬cond0_1 i)
    (x0 : Vec F S2048x1024 .f32) (x1 : Vec F S16384x384 .bf16) (x2 : Vec F S256x128 .f32) :
    sout0_A_0 c i a2 h2 a3 h3 a4 h4 a5 h5 a6 h6 hc0 hc1 x0 x1 x2 = k0_pay2 x0 (featRows i x1) (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S2048x384) hz, View.readCov_unit_zero (S := S2048x384) _ hz]
  simp only [View.readAt_eq_ld, h2.read_unread, h3.read_unread, View.ld_unit_zero (S := S2048x1024) hz]
  rfl

/-- The last column block: the output block is the epilogue of the accumulator the step has just stored. -/
theorem out_C (c : Dev nD) (i : grid0.Coords) (a2 : Memref sig .tc .vmem S2048x1024 .f32) (h2 : a2.IsWhole)
    (a3 : Memref sig .tc .vmem S16384x384 .bf16) (h3 : a3.IsWhole) (a4 : Memref sig .tc .vmem S256x128 .f32) (h4 : a4.IsWhole)
    (a5 : Memref sig .tc .vmem S2048x128 .f32) (h5 : a5.IsWhole) (a6 : Memref sig .tc .vmem S2048x384 .f32) (h6 : a6.IsWhole)
    (hc0 : ¬cond0_0 i) (hc1 : cond0_1 i)
    (x0 : Vec F S2048x1024 .f32) (x1 : Vec F S16384x384 .bf16) (x2 : Vec F S256x128 .f32) (xs0 : Vec F S2048x384 .f32) :
    out0_C_3 c i a2 h2 a3 h3 a4 h4 a5 h5 a6 h6 hc0 hc1 x0 x1 x2 xs0
      = k0_pay3 (sumCols (k0_pay2 x0 (featRows i x1) xs0)) (degCol (k0_pay2 x0 (featRows i x1) xs0)) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  have hcov : ∀ (w : Vec F S2048x384 .f32) (y : S2048x384.Idx),
      ∃ p ∈ [(⟨Rect.unit (s := S2048x384) ![0, 0] S2048x384.size inb_S2048x384_S2048x384_0_0, w⟩ : View.Piece (Elt F) S2048x384 .f32)], y ∈ p.1.set :=
    fun w y => ⟨_, List.mem_singleton_self _, View.mem_set_unit_zero hz inb_S2048x384_S2048x384_0_0 y⟩
  rw [View.readCov_eq_canon_ld _ _ _ (hcov _), View.readCov_eq_canon_ld _ _ _ (hcov _), View.canon_unit_zero hz]
  simp only [View.readAt_eq_ld, h2.read_unread, h3.read_unread, h4.read_unread, h6.read_unread,
    View.ld_unit_zero (S := S2048x1024) hz, View.ld_unit_zero (S := S2048x384) hz, View.ld_unit_zero (S := S256x128) hz]
  rfl

end Cert.KernelIdeal.Pieces

end
-- ==== Proof.Blocks.lean ====
/-
  What the kernel's input blocks hold at a grid point, as entries of the three argument arrays.

  Grid point `t` (of 128, row-major over 8 row blocks × 16 column blocks) has row block `t / 16` and column block `t % 16`.
  * The adjacency block at `t` holds  A (2048·(t/16) + r, 1024·(t%16) + k).
  * The feature operand is resident: its block is the whole augmented matrix  [H | 1]  (H followed by 128 columns of
    ones), and the body reads its rows 1024·(t%16) + k.
  * The weight operand is resident: its block is the whole transposed weight matrix, W read at (o, f).
  * The epilogue's two loads of the accumulator read its columns f < 256 and its column 256.
-/
import proofs.«148739_j35536559407742_2_alg».proof.Proof.Pieces
import proofs.«148739_j35536559407742_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Cert.KernelIdeal.Pieces Idealize.ShloMosaic.ValueIdx Cert.GcnSpec

variable (m : (ℓ : Loc nD τ sig) → Buf (Elt Ideal) ℓ)

/-! ## The grid and the index maps, decided once -/

theorem col_of_point : ∀ t : Fin cfg0.N, ((grid0.coords t) 1).val = t.val % 16 :=
  (by decide +kernel : ∀ t : Fin grid0.N, ((grid0.coords t) 1).val = t.val % 16)

theorem adj_index : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)

theorem feat_index : ∀ t : Fin cfg0.N, win0_1.index t 0 = 0 ∧ win0_1.index t 1 = 0 :=
  (by decide +kernel : ∀ t : Fin grid0.N, win0_1.index t 0 = 0 ∧ win0_1.index t 1 = 0)

theorem wt_index : ∀ t : Fin cfg0.N, win0_2.index t 0 = 0 ∧ win0_2.index t 1 = 0 :=
  (by decide +kernel : ∀ t : Fin grid0.N, win0_2.index t 0 = 0 ∧ win0_2.index t 1 = 0)

theorem out_index : ∀ t : Fin cfg0.N, win0_3.index t 0 = t.val / 16 ∧ win0_3.index t 1 = 0 :=
  (by decide +kernel : ∀ t : Fin grid0.N, win0_3.index t 0 = t.val / 16 ∧ win0_3.index t 1 = 0)

/-! ## The adjacency block -/

theorem adjBlock_apply (c : Dev nD) (t : Fin cfg0.N) (r : Fin 2048) (k : Fin 1024) :
    (iblk m c 0 t : Vec Ideal S2048x1024 .f32) (ix2 r k)
      = ext2 (m ((c : Thread nD τ).loc main_arg0)) (2048 * (t.val / 16) + r.val) (1024 * (t.val % 16) + k.val) := by
  have hN : t.val < 128 := lt_of_lt_of_eq t.isLt N_0
  rw [ext2_of_lt _ (by omega) (by omega)]
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 16) + r.val; rw [(adj_index t).1]; omega
  | ⟨1, _⟩ => show win0_0.index t 1 * 1024 + 1 * k.val = 1024 * (t.val % 16) + k.val; rw [(adj_index t).2]; omega

/-! ## The augmented feature matrix -/

/-- The augmented feature matrix at natural-number coordinates: H in its first 256 columns, then ones. -/
def haug (H : (⟨2, ![16384, 256]⟩ : Shape).Idx → EReal) (j cc : ℕ) : EReal := if cc < 256 then ext2 H j cc else 1

/-- What the region finds in the feature operand: the host's concatenation of the (format-changed) features with a block
    of the bf16 word of 1.0. -/
theorem featArray_eq (c : Dev nD) :
    (V m c main_v2 : S16384x384.Idx → EReal)
      = concatenate S16384x384 1 [⟨S16384x256, truncf (F := Ideal) .bf16 (m ((c : Thread nD τ).loc main_arg1)) bitsLt_bf16_f32⟩,
          ⟨S16384x128, broadcastInDim S16384x128 ![] bcast_S_S16384x128 (constant (F := Ideal) S_ .bf16 0x3F80#16)⟩]
          concatenates_S16384x256_S16384x128_S16384x384_d1 := by
  dsimp only [Gen.V, Gen.hostOps0]; after_results

theorem featArray_apply (c : Dev nD) (j : Fin 16384) (cc : Fin 384) :
    (V m c main_v2 : S16384x384.Idx → EReal) (ix2 j cc) = haug (m ((c : Thread nD τ).loc main_arg1)) j.val cc.val := by
  rw [featArray_eq]
  unfold haug
  by_cases h : cc.val < 256
  · rw [if_pos h, ext2_of_lt _ j.isLt h]
    rw [concatenate_pair_apply_left (1 : Fin S16384x384.rank) _ _ concatenates_S16384x256_S16384x128_S16384x384_d1 (ix2 j cc) rfl
      (ix2 j ⟨cc.val, h⟩) (fun b => by match b with | ⟨0, _⟩ => rfl | ⟨1, _⟩ => rfl)]
    rfl
  · rw [if_neg h]
    have h2 : cc.val - 256 < 128 := by have := cc.isLt; omega
    rw [concatenate_pair_apply_right (1 : Fin S16384x384.rank) _ _ concatenates_S16384x256_S16384x128_S16384x384_d1 (ix2 j cc) rfl rfl
      (ix2 j ⟨cc.val - 256, h2⟩) (fun b hb => by match b with | ⟨0, _⟩ => rfl | ⟨1, _⟩ => exact absurd rfl hb)
      (by show (cc.val - 256) + 256 = cc.val; omega)]
    rw [broadcastInDim_apply _ bcast_S_S16384x128 _ _ ix0 (fun a => a.elim0)]
    exact ofBits_bf16_one

theorem featBlock_eq (c : Dev nD) (t : Fin cfg0.N) :
    (iblk m c 1 t : Vec Ideal S16384x384 .bf16) = (V m c main_v2 : S16384x384.Idx → EReal) := by
  funext j
  unfold iblk
  rw [View.read_apply]
  show V m c main_v2 _ = V m c main_v2 j
  congr 1
  funext a
  apply Fin.ext
  match a with
  | ⟨0, _⟩ => show win0_1.index t 0 * 16384 + 1 * (j 0).val = (j 0).val; rw [(feat_index t).1]; omega
  | ⟨1, _⟩ => show win0_1.index t 1 * 384 + 1 * (j 1).val = (j 1).val; rw [(feat_index t).2]; omega

/-- The rows the body loads, of any array: rows 1024·(column block) + k. -/
theorem featRows_apply (X : Vec Ideal S16384x384 .bf16) (i : grid0.Coords) (hi : (i 1).val < 16) (k : Fin 1024) (cc : Fin 384) :
    featRows i X (ix2 k cc) = X (ix2 ⟨1024 * (i 1).val + k.val, by have := k.isLt; omega⟩ cc) := by
  show X ((Rect.unit (s := S16384x384) (k0_off1 i) S1024x384.size (k0_off1_inb i)).idx (ix2 k cc)) = _
  congr 1
  funext a
  apply Fin.ext
  match a with
  | ⟨0, _⟩ => show k0_off1 i 0 + 1 * k.val = 1024 * (i 1).val + k.val; rw [k0_off1_eq]; show 1024 * (i 1).val + 1 * k.val = _; omega
  | ⟨1, _⟩ => show k0_off1 i 1 + 1 * cc.val = cc.val; rw [k0_off1_eq]; show 0 + 1 * cc.val = _; omega

/-- The rows of the augmented feature matrix the body loads at point `t`. -/
theorem featRowsAt_apply (c : Dev nD) (t : Fin cfg0.N) (k : Fin 1024) (cc : Fin 384) :
    featRows (grid0.coords t) (iblk m c 1 t : Vec Ideal S16384x384 .bf16) (ix2 k cc)
      = haug (m ((c : Thread nD τ).loc main_arg1)) (1024 * (t.val % 16) + k.val) cc.val := by
  have hc := col_of_point t
  rw [featBlock_eq, featRows_apply _ _ (by rw [hc]; omega), featArray_apply]
  show haug _ (1024 * ((grid0.coords t) 1).val + k.val) cc.val = _
  rw [hc]

/-! ## The transposed weights -/

theorem wtArray_eq (c : Dev nD) :
    (V m c main_v3 : S256x128.Idx → EReal)
      = transpose S256x128 [1, 0] (m ((c : Thread nD τ).loc main_arg2)) transposes_S128x256_S256x128_1_0 := by
  dsimp only [Gen.V, Gen.hostOps0]; after_results

theorem wtBlock_apply (c : Dev nD) (t : Fin cfg0.N) (f : Fin 256) (o : Fin 128) :
    (iblk m c 2 t : Vec Ideal S256x128 .f32) (ix2 f o) = m ((c : Thread nD τ).loc main_arg2) (ix2 o f) := by
  have e : (iblk m c 2 t : Vec Ideal S256x128 .f32) = (V m c main_v3 : S256x128.Idx → EReal) := by
    funext j
    unfold iblk
    rw [View.read_apply]
    show V m c main_v3 _ = V m c main_v3 j
    congr 1
    funext a
    apply Fin.ext
    match a with
    | ⟨0, _⟩ => show win0_2.index t 0 * 256 + 1 * (j 0).val = (j 0).val; rw [(wt_index t).1]; omega
    | ⟨1, _⟩ => show win0_2.index t 1 * 128 + 1 * (j 1).val = (j 1).val; rw [(wt_index t).2]; omega
  rw [e, wtArray_eq]
  exact transpose_ix2_apply (m ((c : Thread nD τ).loc main_arg2)) transposes_S128x256_S256x128_1_0 f o

/-! ## The epilogue's two loads of the accumulator -/

theorem sumCols_apply (P : Vec Ideal S2048x384 .f32) (r : Fin 2048) (f : Fin 256) :
    sumCols P (ix2 r f) = P (ix2 r ⟨f.val, by have := f.isLt; omega⟩) := by
  show P ((Rect.unit (s := S2048x384) ![0, 0] S2048x256.size inb_S2048x384_S2048x256_0_0).idx (ix2 r f)) = _
  congr 1
  funext a
  apply Fin.ext
  match a with
  | ⟨0, _⟩ => show 0 + 1 * r.val = r.val; omega
  | ⟨1, _⟩ => show 0 + 1 * f.val = f.val; omega

theorem degCol_apply (P : Vec Ideal S2048x384 .f32) (r : Fin 2048) :
    degCol P (ix2 r (0 : Fin 1)) = P (ix2 r ⟨256, by decide⟩) := by
  show P ((Rect.unit (s := S2048x384) ![0, 256] S2048x1.size inb_S2048x384_S2048x1_0_256).idx (ix2 r (0 : Fin 1))) = _
  congr 1
  funext a
  apply Fin.ext
  match a with
  | ⟨0, _⟩ => show 0 + 1 * r.val = r.val; omega
  | ⟨1, _⟩ => show 256 + 1 * 0 = 256; rfl

end Cert.KernelIdeal.Blocks

end
-- ==== Proof.MaskBit.lean ====
/-
  The adjacency indicator as a number.  The kernel widens the one-bit comparison result to a 32-bit word and reads
  that word as a signed integer; the reference reads the one-bit result directly as an unsigned integer.  A one-bit
  word is 0 or 1, widening by zeros keeps that value, and 0 and 1 are non-negative in 32 bits: the two readings are
  the same real number.
-/
import Mathlib.Data.Real.Basic

namespace Cert.GcnSpec

/-- Widening a one-bit word by zeros to 32 bits and reading it signed gives the bit's value. -/
theorem toInt_setWidth_bit (b : BitVec 1) : (b.setWidth 32).toInt = (b.toNat : Int) := by
  rcases BitVec.eq_zero_or_eq_one b with rfl | rfl <;> decide

/-- The same, as real numbers. -/
theorem real_toInt_setWidth_bit (b : BitVec 1) : (((b.setWidth 32).toInt : Int) : ℝ) = ((b.toNat : Nat) : ℝ) := by
  rw [toInt_setWidth_bit]; simp

end Cert.GcnSpec
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The kernel's two arithmetic steps, read at one index over the extended reals.

  * The accumulation step at `(r, c)`:  acc r c + Σ_{k<1024} ind (a r k) · h k c, where `a` is the block of the adjacency
    matrix, `ind` the indicator of a nonzero entry (the comparison bit widened to 32 bits and read as a signed integer is
    the bit's value), and `h` the 1024 rows of the augmented feature matrix.  The matrix product into a zero accumulator
    is the plain sum over its one contracted axis.
  * The epilogue at `(r, o)`:  Σ_{f<256} (s r f / (d r + 1)) · w f o, where `s` holds the neighbour sums, `d` the one-column
    neighbour count (repeated along the 256 feature columns before the division) and `w` the transposed weights.
  * The zero fill is 0 everywhere.
-/
import proofs.«148739_j35536559407742_2_alg».proof.Proof.Gen.KernelIdeal.Skeleton
import proofs.«148739_j35536559407742_2_alg».proof.Proof.Spec
import proofs.«148739_j35536559407742_2_alg».proof.Proof.MaskBit
import proofs.«148739_j35536559407742_2_alg».proof.Proof.LibKeepdims
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.GcnSpec

/-! ## The indicator -/

/-- The kernel's indicator of a nonzero entry — compare "ordered and not equal" with the zero word, widen the bit to 32
    bits, read as a signed integer — is `ind`: on the extended reals every pair is ordered, and the widened bit read signed
    is the bit's value. -/
theorem mask_eq_ind (x : EReal) :
    (FloatOps.sitofp (F := Ideal) .f32
        ((FloatOps.cmpf (F := Ideal) (φ := .f32) .one x (Scalar.ofBits (F := Ideal) .f32 0x00000000#32)).setWidth 32) : EReal)
      = ind x := by
  show ((((Ideal.cmp .one x (Ideal.ofBits .f32 0x00000000#32)).setWidth 32).toInt : ℝ) : EReal) = _
  rw [real_toInt_setWidth_bit]
  rfl

/-! ## The two matrix products into a zero accumulator, as sums -/

theorem stepL0 (i : S2048x384.Idx) (q : dot_S2048x1024_S1024x384_S2048x384_1_0_0_1_n_n.contr.Idx) :
    (dot_S2048x1024_S1024x384_S2048x384_1_0_0_1_n_n.lhsIdx i q 0).val = (i 0).val := by
  unfold DotDims.lhsIdx
  rw [dif_neg (show ¬(0 : Fin S2048x1024.rank) ∈ dot_S2048x1024_S1024x384_S2048x384_1_0_0_1_n_n.lhsBatch by decide),
    dif_pos (show (0 : Fin S2048x1024.rank) ∈ dot_S2048x1024_S1024x384_S2048x384_1_0_0_1_n_n.lhsNonContracting by decide)]
  rfl

theorem stepR1 (i : S2048x384.Idx) (q : dot_S2048x1024_S1024x384_S2048x384_1_0_0_1_n_n.contr.Idx) :
    (dot_S2048x1024_S1024x384_S2048x384_1_0_0_1_n_n.rhsIdx i q 1).val = (i 1).val := by
  unfold DotDims.rhsIdx
  rw [dif_neg (show ¬(1 : Fin S1024x384.rank) ∈ dot_S2048x1024_S1024x384_S2048x384_1_0_0_1_n_n.rhsBatch by decide),
    dif_pos (show (1 : Fin S1024x384.rank) ∈ dot_S2048x1024_S1024x384_S2048x384_1_0_0_1_n_n.rhsNonContracting by decide)]
  rfl

/-- The [2048,1024] × [1024,384] product into zero, at `(r, c)`: the sum over the 1024 contracted positions. -/
theorem step_matmul (lhs : FVec Ideal S2048x1024 .bf16) (rhs : FVec Ideal S1024x384 .bf16) (r : Fin 2048) (c : Fin 384) :
    matmul dot_S2048x1024_S1024x384_S2048x384_1_0_0_1_n_n none lhs rhs (constant (F := Ideal) S2048x384 .f32 0x00000000#32) (ix2 r c)
      = ∑ k : Fin 1024, lhs (ix2 r k) * rhs (ix2 k c) := by
  simp only [matmul]
  rw [Ideal.matmul_constant_zero_apply,
    ← Equiv.sum_comp (ValueIdx.contrEquiv1 dot_S2048x1024_S1024x384_S2048x384_1_0_0_1_n_n 1024 rfl rfl).symm]
  refine Finset.sum_congr rfl fun k _ => ?_
  have hk := ValueIdx.contrEquiv1_symm_val dot_S2048x1024_S1024x384_S2048x384_1_0_0_1_n_n 1024 rfl rfl k
  have el : dot_S2048x1024_S1024x384_S2048x384_1_0_0_1_n_n.lhsIdx (ix2 r c)
      ((ValueIdx.contrEquiv1 dot_S2048x1024_S1024x384_S2048x384_1_0_0_1_n_n 1024 rfl rfl).symm k) = ix2 r k :=
    funext fun a => Fin.ext (by
      match a with
      | ⟨0, _⟩ => exact stepL0 _ _
      | ⟨1, _⟩ => exact (dot_S2048x1024_S1024x384_S2048x384_1_0_0_1_n_n.lhsIdx_val_of_single rfl _ _).trans hk)
  have er : dot_S2048x1024_S1024x384_S2048x384_1_0_0_1_n_n.rhsIdx (ix2 r c)
      ((ValueIdx.contrEquiv1 dot_S2048x1024_S1024x384_S2048x384_1_0_0_1_n_n 1024 rfl rfl).symm k) = ix2 k c :=
    funext fun a => Fin.ext (by
      match a with
      | ⟨0, _⟩ => exact (dot_S2048x1024_S1024x384_S2048x384_1_0_0_1_n_n.rhsIdx_val_of_single rfl _ _).trans hk
      | ⟨1, _⟩ => exact stepR1 _ _)
  rw [el, er]

theorem projL0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide),
    dif_pos (show (0 : Fin S2048x256.rank) ∈ dot_S2048x256_S256x128_S2048x128_1_0_0_1_n_n.lhsNonContracting by decide)]
  rfl

theorem projR1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide),
    dif_pos (show (1 : Fin S256x128.rank) ∈ dot_S2048x256_S256x128_S2048x128_1_0_0_1_n_n.rhsNonContracting by decide)]
  rfl

/-- The [2048,256] × [256,128] product into zero, at `(r, o)`: the sum over the 256 features. -/
theorem proj_matmul (lhs : FVec Ideal S2048x256 .f32) (rhs : FVec Ideal S256x128 .f32) (r : Fin 2048) (o : Fin 128) :
    matmul dot_S2048x256_S256x128_S2048x128_1_0_0_1_n_n none lhs rhs (constant (F := Ideal) S2048x128 .f32 0x00000000#32) (ix2 r o)
      = ∑ f : Fin 256, lhs (ix2 r f) * rhs (ix2 f o) := by
  simp only [matmul]
  rw [Ideal.matmul_constant_zero_apply,
    ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 r o)
      ((ValueIdx.contrEquiv1 dot_S2048x256_S256x128_S2048x128_1_0_0_1_n_n 256 rfl rfl).symm k) = ix2 r k :=
    funext fun a => Fin.ext (by
      match a with
      | ⟨0, _⟩ => exact projL0 _ _
      | ⟨1, _⟩ => exact (dot_S2048x256_S256x128_S2048x128_1_0_0_1_n_n.lhsIdx_val_of_single rfl _ _).trans hk)
  have er : dot_S2048x256_S256x128_S2048x128_1_0_0_1_n_n.rhsIdx (ix2 r o)
      ((ValueIdx.contrEquiv1 dot_S2048x256_S256x128_S2048x128_1_0_0_1_n_n 256 rfl rfl).symm k) = ix2 k o :=
    funext fun a => Fin.ext (by
      match a with
      | ⟨0, _⟩ => exact (dot_S2048x256_S256x128_S2048x128_1_0_0_1_n_n.rhsIdx_val_of_single rfl _ _).trans hk
      | ⟨1, _⟩ => exact projR1 _ _)
  rw [el, er]

/-! ## The three payloads at an index -/

/-- The zero fill. -/
theorem fill_apply (j : S2048x384.Idx) : k0_pay1 (F := Ideal) j = 0 := by
  unfold k0_pay1
  simp only [shapeCast_self]
  exact Ideal.ofBits_zero_f32

/-- THE ACCUMULATION STEP at `(r, c)`. -/
theorem step_apply (x0 : Vec Ideal S2048x1024 .f32) (v12 : Vec Ideal S1024x384 .bf16) (acc : Vec Ideal S2048x384 .f32)
    (r : Fin 2048) (c : Fin 384) :
    k0_pay2 (F := Ideal) x0 v12 acc (ix2 r c) = acc (ix2 r c) + ∑ k : Fin 1024, ind (x0 (ix2 r k)) * v12 (ix2 k c) := by
  unfold k0_pay2
  simp only [shapeCast_self]
  rw [addf_apply, step_matmul]
  have hs : ∀ k : Fin 1024,
      (truncf (F := Ideal) .bf16 (sitofp (F := Ideal) .f32 (extui 32 (cmpf .one x0 (broadcast S2048x1024 (Scalar.ofBits (F := Ideal) .f32 0x00000000#32))) natLt_1_32)) bitsLt_bf16_f32 : FVec Ideal S2048x1024 .bf16) (ix2 r k)
        = ind (x0 (ix2 r k)) := fun k => mask_eq_ind (x0 (ix2 r k))
  simp only [hs]

/-- THE EPILOGUE at `(r, o)`. -/
theorem epilogue_apply (v23 : Vec Ideal S2048x256 .f32) (v24 : Vec Ideal S2048x1 .f32) (v29 : Vec Ideal S256x128 .f32)
    (r : Fin 2048) (o : Fin 128) :
    k0_pay3 (F := Ideal) v23 v24 v29 (ix2 r o)
      = ∑ f : Fin 256, Ideal.div (v23 (ix2 r f)) (v24 (ix2 r (0 : Fin 1)) + oneLit) * v29 (ix2 f o) := by
  unfold k0_pay3
  simp only [shapeCast_self]
  rw [proj_matmul]
  refine Finset.sum_congr rfl fun f _ => ?_
  rw [divf_apply, Cert.Keepdims.broadcastTo_a1_ab_apply, addf_apply]
  rfl

end Cert.KernelIdeal.Payload

end
-- ==== Proof.Fold.lean ====
/-
  The accumulator across the column blocks of one row block.

  At grid point `n` the body adds to the accumulator, at entry `(r, c)`,
      Σ_{k<1024} ind (A (2048·(n/16) + r, 1024·(n%16) + k)) · [H | 1] (1024·(n%16) + k, c);
  at the first column block (n % 16 = 0) it adds this to zero, at the others to what the point before left.  So after point
  `t` the accumulator is the sum of these addends over the points `16·(t/16) … t`, and after the last column block of a
  row block it is the sum over all 16384 columns: the neighbour-feature sum in columns f < 256, the neighbour count in
  column 256 (where the augmented matrix is 1).
-/
import proofs.«148739_j35536559407742_2_alg».proof.Proof.Gen.KernelIdeal.Value
import proofs.«148739_j35536559407742_2_alg».proof.Proof.Blocks
import proofs.«148739_j35536559407742_2_alg».proof.Proof.Payload
import proofs.«148739_j35536559407742_2_alg».proof.Proof.Spec

set_option maxRecDepth 16384

noncomputable section

open Idealize.ShloMosaic Idealize.ShloMosaic.TcCoe Idealize.SL.Sem

namespace Cert.KernelIdeal.Fold

open Cert.KernelIdeal Cert.KernelIdeal.Gen Cert.KernelIdeal.Pieces Cert.KernelIdeal.Payload Cert.KernelIdeal.Blocks
open Idealize.ShloMosaic.ValueIdx Cert.GcnSpec

variable (m : (ℓ : Loc nD τ sig) → Buf (Elt Ideal) ℓ)

/-- What grid point `n` adds to the accumulator at an entry. -/
def addend (A : (⟨2, ![16384, 16384]⟩ : Shape).Idx → EReal) (H : (⟨2, ![16384, 256]⟩ : Shape).Idx → EReal) (n : ℕ)
    (idx : S2048x384.Idx) : EReal :=
  ∑ k : Fin 1024, ind (ext2 A (2048 * (n / 16) + (idx 0).val) (1024 * (n % 16) + k.val)) * haug H (1024 * (n % 16) + k.val) (idx 1).val

/-- The accumulation step at point `t`, over any previous contents: the previous entry plus the point's addend. -/
theorem step_at (c : Dev nD) (t : Fin cfg0.N) (acc : Vec Ideal S2048x384 .f32) (idx : S2048x384.Idx) :
    k0_pay2 (F := Ideal) (iblk m c 0 t) (featRows (grid0.coords t) (iblk m c 1 t)) acc idx
      = acc idx + addend (m ((c : Thread nD τ).loc main_arg0)) (m ((c : Thread nD τ).loc main_arg1)) t.val idx := by
  obtain ⟨r, cc, rfl⟩ : ∃ (r : Fin 2048) (cc : Fin 384), idx = ix2 r cc := ⟨idx 0, idx 1, eq_ix2 idx⟩
  have hs : (∑ k : Fin 1024, ind ((iblk m c 0 t : Vec Ideal S2048x1024 .f32) (ix2 r k))
        * (featRows (grid0.coords t) (iblk m c 1 t : Vec Ideal S16384x384 .bf16)) (ix2 k cc))
      = addend (m ((c : Thread nD τ).loc main_arg0)) (m ((c : Thread nD τ).loc main_arg1)) t.val (ix2 r cc) :=
    Finset.sum_congr rfl fun k _ => by
      rw [adjBlock_apply m c t r k, featRowsAt_apply m c t k cc]
  exact (step_apply (iblk m c 0 t) (featRows (grid0.coords t) (iblk m c 1 t)) acc r cc).trans
    (congrArg (fun s => acc (ix2 r cc) + s) hs)

/-- What point `n` leaves in the accumulator over what the point before left: at a first column block the addend alone. -/
theorem scAt_apply (c : Dev nD) (n : ℕ) (hb : n < cfg0.N) (acc : Vec Ideal S2048x384 .f32) (idx : S2048x384.Idx) :
    Value.scAt0_0 m c n hb acc idx
      = (if n % 16 = 0 then 0 else acc idx) + addend (m ((c : Thread nD τ).loc main_arg0)) (m ((c : Thread nD τ).loc main_arg1)) n idx := by
  have hN : n < 128 := lt_of_lt_of_eq hb N_0
  unfold Value.scAt0_0
  by_cases h0 : n % 16 = 0
  · have h1 : ¬n % 16 = 15 := by omega
    rw [dif_pos h0, dif_neg h1, if_pos h0]
    have e := acc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))
    rw [e]
    refine (step_at m c (⟨n, hb⟩ : Fin cfg0.N) _ idx).trans ?_
    rw [fill_apply]
  · by_cases h1 : n % 16 = 15
    · rw [dif_neg h0, dif_pos h1, if_neg h0]
      have e := acc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
      rw [e]
      exact step_at m c (⟨n, hb⟩ : Fin cfg0.N) acc idx
    · rw [dif_neg h0, dif_neg h1, if_neg h0]
      have e := acc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc
      rw [e]
      exact step_at m c (⟨n, hb⟩ : Fin cfg0.N) acc idx

/-- THE ACCUMULATOR AFTER POINT `t`: the sum of the addends of the points of its row block up to `t`. -/
theorem scratch_after (c : Dev nD) (t : Fin cfg0.N) (idx : S2048x384.Idx) :
    (outsAt0 m c t.val t.isLt).2 idx
      = ∑ s ∈ Finset.range (t.val % 16 + 1), addend (m ((c : Thread nD τ).loc main_arg0)) (m ((c : Thread nD τ).loc main_arg1)) (16 * (t.val / 16) + s) idx := by
  have hN : t.val < 128 := lt_of_lt_of_eq t.isLt N_0
  rw [Value.soutsAt0_0_eq m c t]
  refine (Pipeline.accAt_add_apply (N := cfg0.N)
    (fun n h => Value.scAt0_0 m c n h (VS0_0.read (Elt Ideal) VS0_0.junk)) (Value.scAt0_0 m c) (fun _ => (0 : EReal))
    (addend (m ((c : Thread nD τ).loc main_arg0)) (m ((c : Thread nD τ).loc main_arg1))) (16 * (t.val / 16)) 15 ?_ ?_ (t.val % 16) (by omega) _ idx).trans (zero_add _)
  · intro h i
    show Value.scAt0_0 m c (16 * (t.val / 16)) h _ i = 0 + _
    rw [scAt_apply, if_pos (by omega)]
  · intro n h acc i hlt hle
    rw [scAt_apply, if_neg (by omega)]

/-- After the last column block of a row block the accumulator's entry `(r, c)` is the sum over all 16384 columns. -/
theorem scratch_last (c : Dev nD) (t : Fin cfg0.N) (h15 : t.val % 16 = 15) (r : Fin 2048) (cc : Fin 384) :
    (outsAt0 m c t.val t.isLt).2 (ix2 r cc)
      = ∑ j : Fin 16384, ind (ext2 (m ((c : Thread nD τ).loc main_arg0)) (2048 * (t.val / 16) + r.val) j.val) * haug (m ((c : Thread nD τ).loc main_arg1)) j.val cc.val := by
  rw [scratch_after, h15]
  show ∑ s ∈ Finset.range 16, _ = _
  rw [← sum_16_runs_1024 (fun j => ind (ext2 (m ((c : Thread nD τ).loc main_arg0)) (2048 * (t.val / 16) + r.val) j) * haug (m ((c : Thread nD τ).loc main_arg1)) j cc.val)]
  refine Finset.sum_congr rfl fun s hs => ?_
  have hs' : s < 16 := Finset.mem_range.mp hs
  have e1 : (16 * (t.val / 16) + s) / 16 = t.val / 16 := by omega
  have e2 : (16 * (t.val / 16) + s) % 16 = s := by omega
  show ∑ k : Fin 1024, ind (ext2 _ (2048 * ((16 * (t.val / 16) + s) / 16) + r.val) (1024 * ((16 * (t.val / 16) + s) % 16) + k.val))
      * haug _ (1024 * ((16 * (t.val / 16) + s) % 16) + k.val) cc.val = _
  rw [e1, e2]

/-- Its feature columns hold the neighbour-feature sums of the row block's nodes, -/
theorem rowSum_apply (c : Dev nD) (t : Fin cfg0.N) (h15 : t.val % 16 = 15) (r : Fin 2048) (f : Fin 256) :
    (outsAt0 m c t.val t.isLt).2 (ix2 r ⟨f.val, by have := f.isLt; omega⟩)
      = nbrSum (m ((c : Thread nD τ).loc main_arg0)) (m ((c : Thread nD τ).loc main_arg1))
          ⟨2048 * (t.val / 16) + r.val, by have := r.isLt; have := lt_of_lt_of_eq t.isLt N_0; omega⟩ f := by
  have hR : 2048 * (t.val / 16) + r.val < 16384 := by have := r.isLt; have := lt_of_lt_of_eq t.isLt N_0; omega
  rw [scratch_last m c t h15]
  show _ = ∑ j : Fin 16384, ind ((m ((c : Thread nD τ).loc main_arg0)) (ix2 ⟨2048 * (t.val / 16) + r.val, hR⟩ j)) * (m ((c : Thread nD τ).loc main_arg1)) (ix2 j f)
  refine Finset.sum_congr rfl fun j _ => ?_
  rw [ext2_of_lt _ hR j.isLt]
  unfold haug
  rw [if_pos f.isLt, ext2_of_lt _ j.isLt f.isLt]

/-- and its column 256 their neighbour counts. -/
theorem rowDeg_apply (c : Dev nD) (t : Fin cfg0.N) (h15 : t.val % 16 = 15) (r : Fin 2048) :
    (outsAt0 m c t.val t.isLt).2 (ix2 r ⟨256, by decide⟩)
      = deg (m ((c : Thread nD τ).loc main_arg0)) ⟨2048 * (t.val / 16) + r.val, by have := r.isLt; have := lt_of_lt_of_eq t.isLt N_0; omega⟩ := by
  have hR : 2048 * (t.val / 16) + r.val < 16384 := by have := r.isLt; have := lt_of_lt_of_eq t.isLt N_0; omega
  rw [scratch_last m c t h15]
  show _ = ∑ j : Fin 16384, ind ((m ((c : Thread nD τ).loc main_arg0)) (ix2 ⟨2048 * (t.val / 16) + r.val, hR⟩ j))
  refine Finset.sum_congr rfl fun j _ => ?_
  rw [ext2_of_lt _ hR j.isLt]
  unfold haug
  rw [if_neg (by decide), mul_one]

end Cert.KernelIdeal.Fold

end
-- ==== Proof.Final.lean ====
/-
  The result array after the run.

  The output block of row block `q` is written back once, after grid point `16·q + 15` (its last column block).  There the
  epilogue reads the accumulator the same point has just completed — the sums over all 16384 columns — so the block written
  back is the layer's rows `2048·q … 2048·q + 2047`:  Σ_f (neighbour sum / (neighbour count + 1)) · W o f.  The eight blocks
  tile the 16384 rows, so the whole result array is the layer of the three argument arrays.
-/
import proofs.«148739_j35536559407742_2_alg».proof.Proof.Fold
import proofs.«148739_j35536559407742_2_alg».proof.Proof.Gen.KernelIdeal.Value

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Pieces Cert.KernelIdeal.Payload Cert.KernelIdeal.Blocks
open Cert.KernelIdeal.Fold Idealize.ShloMosaic.ValueIdx Cert.GcnSpec

variable (m : (ℓ : Loc nD τ sig) → Buf (Elt Ideal) ℓ) (ρ : Dev nD → PrngReg)

/-- The layer of the three argument arrays as launched. -/
abbrev result (c : Dev nD) : Buf (Elt Ideal) ((c : Thread nD τ).loc main_v4) :=
  layer (m ((c : Thread nD τ).loc main_arg0)) (m ((c : Thread nD τ).loc main_arg1)) (m ((c : Thread nD τ).loc main_arg2))

/-- The second component of a pair given by an equation. -/
theorem snd_of_eq {α β : Type} {p : α × β} {x : α} {y : β} (h : p = (x, y)) : p.2 = y := by subst h; rfl

/-- At a last column block, the accumulator the epilogue reads (the step over what the point before left) is the
    accumulator after that point. -/
theorem acc_last (c : Dev nD) (t : Fin cfg0.N) (h0 : ¬t.val % 16 = 0) (h1 : t.val % 16 = 15) :
    k0_pay2 (F := Ideal) (iblk m c 0 t) (featRows (grid0.coords t) (iblk m c 1 t)) (outsAt0 m c (t.val - 1) (Nat.lt_of_le_of_lt (Nat.sub_le _ _) t.isLt)).2
      = (outsAt0 m c t.val t.isLt).2 :=
  ((snd_of_eq (outsAt0_C m c t h0 h1)).trans (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2)).symm

/-- The epilogue of the completed accumulator, at `(r, o)` of the block: the layer at row `2048·(t/16) + r`. -/
theorem block_value (c : Dev nD) (t : Fin cfg0.N) (h1 : t.val % 16 = 15) (r : Fin 2048) (o : Fin 128) :
    k0_pay3 (F := Ideal) (sumCols (outsAt0 m c t.val t.isLt).2) (degCol (outsAt0 m c t.val t.isLt).2) (iblk m c 2 t) (ix2 r o)
      = layer (m ((c : Thread nD τ).loc main_arg0)) (m ((c : Thread nD τ).loc main_arg1)) (m ((c : Thread nD τ).loc main_arg2))
          (ix2 ⟨2048 * (t.val / 16) + r.val, by have := r.isLt; have := lt_of_lt_of_eq t.isLt N_0; omega⟩ o) := by
  refine (epilogue_apply _ _ _ r o).trans ?_
  show _ = ∑ f : Fin 256, Ideal.div (nbrSum _ _ _ f) (deg _ _ + oneLit) * (m ((c : Thread nD τ).loc main_arg2)) (ix2 o f)
  refine Finset.sum_congr rfl fun f _ => ?_
  rw [sumCols_apply, degCol_apply, rowSum_apply m c t h1 r f, rowDeg_apply m c t h1 r, wtBlock_apply m c t f o]

/-- WHAT A WRITE-BACK WRITES is the block of the layer at its rows. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have h0 : ¬t.val % 16 = 0 := by omega
  have hN : t.val < 128 := lt_of_lt_of_eq t.isLt N_0
  rw [Value.flushed3_C m c t h0 h1]
  have e := out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  rw [e, acc_last m c t h0 h1]
  funext j
  obtain ⟨r, o, rfl⟩ : ∃ (r : Fin 2048) (o : Fin 128), j = ix2 r o := ⟨j 0, j 1, eq_ix2 (n0 := 2048) (n1 := 128) j⟩
  show k0_pay3 (F := Ideal) (sumCols (outsAt0 m c t.val t.isLt).2) (degCol (outsAt0 m c t.val t.isLt).2) (iblk m c 2 t) (ix2 r o)
    = layer (m ((c : Thread nD τ).loc main_arg0)) (m ((c : Thread nD τ).loc main_arg1)) (m ((c : Thread nD τ).loc main_arg2)) (((cfg0.win 3).blk t).view.emb (ix2 r o))
  refine (block_value m c t h1 r o).trans ?_
  congr 1
  funext a
  apply Fin.ext
  match a with
  | ⟨0, _⟩ => show 2048 * (t.val / 16) + r.val = win0_3.index t 0 * 2048 + 1 * r.val; rw [(out_index t).1]; omega
  | ⟨1, _⟩ => show o.val = win0_3.index t 1 * 128 + 1 * o.val; rw [(out_index t).2]; omega

/-- An index of the result array is in point `t`'s block iff each coordinate is in the block's range on its axis. -/
theorem mem_blk (t : Fin cfg0.N) (i : S16384x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v4).slice (win0_3.rect t)).set ↔ _
  rw [View.set_slice_whole, Rect.mem_set_unit]
  exact Iff.rfl

/-- Every row is in the block written back after the last column block of its row block. -/
theorem cover (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 128 := N_0
  have hb : 16 * ((i 0).val / 2048) + 15 < cfg0.N := by rw [hN]; omega
  refine ⟨⟨16 * ((i 0).val / 2048) + 15, hb⟩, (flush0_3 _).mpr (by show (16 * ((i 0).val / 2048) + 15) % 16 = 15; omega), ?_⟩
  rw [mem_blk]
  obtain ⟨e0, e1⟩ := out_index ⟨16 * ((i 0).val / 2048) + 15, hb⟩
  intro a
  match a with
  | ⟨0, _⟩ =>
    show win0_3.index ⟨16 * ((i 0).val / 2048) + 15, hb⟩ 0 * 2048 ≤ (i 0).val ∧ (i 0).val < win0_3.index ⟨16 * ((i 0).val / 2048) + 15, hb⟩ 0 * 2048 + 2048
    rw [e0]; show (16 * ((i 0).val / 2048) + 15) / 16 * 2048 ≤ (i 0).val ∧ (i 0).val < (16 * ((i 0).val / 2048) + 15) / 16 * 2048 + 2048
    omega
  | ⟨1, _⟩ =>
    show win0_3.index ⟨16 * ((i 0).val / 2048) + 15, hb⟩ 1 * 128 ≤ (i 1).val ∧ (i 1).val < win0_3.index ⟨16 * ((i 0).val / 2048) + 15, hb⟩ 1 * 128 + 128
    rw [e1]; omega

/-- THE RESULT ARRAY after the run is the layer of the arguments. -/
theorem final (c : Dev nD) : (dats m 0 c).arrAt 3 cfg0.N = result m c :=
  (dats m 0 c).arrAt_eq_of_cover 3 (result m c) (flushed_eq m c) cover

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A graph layer with neighbour-sum aggregation: for each of 16384 nodes, the feature rows of its neighbours (the columns
  where its adjacency row is nonzero) are summed, divided by the neighbour count plus one, and projected by a 128 × 256
  weight matrix.

  The kernel walks an 8 × 16 grid of 2048 × 1024 blocks of the adjacency matrix.  In a 2048 × 384 accumulator it adds, for
  each column block, the product of the block's 0/1 indicator with the matching 1024 rows of the feature matrix extended by
  columns of ones — so columns 0…255 collect the neighbour-feature sums and column 256 the neighbour count.  After the last
  column block of a row block it divides the sums by the count plus one and multiplies by the transposed weights.  The
  reference forms the indicator of the whole adjacency matrix, its row sums plus one, one 16384-column matrix product, the
  quotient, and the projection.

  Over the extended reals both are  Σ_f ((Σ_j ind (A r j) · H j f) / (Σ_j ind (A r j) + 1)) · W o f :
  a change of float format is the identity; the two spellings of the indicator agree (`MaskBit`, `Payload.mask_eq_ind`); a
  product with the ones column is the indicator itself; and a sum taken in sixteen runs of 1024 columns, started from zero,
  is the sum over all 16384 columns, because addition of extended reals is commutative and associative (`Spec.sum_runs`,
  `Fold`).  No step needs the inputs to be finite.

  The modules: `Spec` (the layer as one function, the re-indexing law), `RefValue` (the reference is the layer), `Pieces`
  and `Payload` (what the body leaves at a grid point, and its arithmetic at an index), `Blocks` (what the blocks hold),
  `Fold` (the accumulator over a row block's column blocks), `Final` (the result array is the layer).
-/
import proofs.«148739_j35536559407742_2_alg».proof.Defs
import proofs.«148739_j35536559407742_2_alg».proof.Proof.Gen.Kernel
import proofs.«148739_j35536559407742_2_alg».proof.Proof.Gen.Kernel.Skeleton
import proofs.«148739_j35536559407742_2_alg».proof.Proof.Gen.Kernel.Launch
import proofs.«148739_j35536559407742_2_alg».proof.Proof.Gen.Kernel.Points
import proofs.«148739_j35536559407742_2_alg».proof.Proof.Gen.Kernel.Frame
import proofs.«148739_j35536559407742_2_alg».proof.Proof.Gen.KernelIdeal
import proofs.«148739_j35536559407742_2_alg».proof.Proof.Gen.KernelIdeal.Skeleton
import proofs.«148739_j35536559407742_2_alg».proof.Proof.Gen.KernelIdeal.Launch
import proofs.«148739_j35536559407742_2_alg».proof.Proof.Gen.KernelIdeal.Points
import proofs.«148739_j35536559407742_2_alg».proof.Proof.Gen.KernelIdeal.Frame
import proofs.«148739_j35536559407742_2_alg».proof.Proof.Gen.ReferenceIdeal
import proofs.«148739_j35536559407742_2_alg».proof.Proof.Gen.Pre_finite_inputs
import proofs.«148739_j35536559407742_2_alg».proof.Proof.Gen.KernelIdeal.Value
import proofs.«148739_j35536559407742_2_alg».proof.Proof.Gen.ReferenceIdeal.Run
import proofs.«148739_j35536559407742_2_alg».proof.Proof.Gen.ReferenceIdeal.Read
import proofs.«148739_j35536559407742_2_alg».proof.Proof.RefValue
import proofs.«148739_j35536559407742_2_alg».proof.Proof.Final
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on the three arguments both programs end with the layer of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
